-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1000x4x1024 : Shape := ⟨3, ![1000, 4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1000x4x1024 : S_.BroadcastsInDim S1000x4x1024 (![] : Fin 0 → Fin S1000x4x1024.rank)
  reducesTo_S1000x4x1024_S_d0_1_2 : S1000x4x1024.ReducesTo [0, 1, 2] S_
  reducesTo_S_S_d : S_.ReducesTo [] S_

variable [Facts]

def fn_part1 {F : FTy → Type} [FloatOps F] (main_arg4 : FVec F S_ .f32) (main_arg5 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  let main_v21 : FVec F S_ .f32 := Host.absf main_arg5
  let main_cst_8 : FVec F S_ .f32 := constant S_ .f32 0x7F800000#32
  let main_v22 : IVec S_ 1 := cmpf .olt main_v21 main_cst_8
  let main_c_9 : IVec S_ 1 := constantI S_ 1 1#1
  let main_v23 : IVec S_ 1 := (fun x v => Host.reduce IntOp.andi x v reducesTo_S_S_d h_S_) main_v22 main_c_9
  let main_v24 : IVec S_ 1 := andi main_v20 main_v23
  main_v24

def fn {F : FTy → Type} [FloatOps F] (main_arg0 : FVec F S4096x1024 .f32) (main_arg1 : FVec F S1000x4x1024 .f32) (main_arg2 : FVec F S_ .f32) (main_arg3 : FVec F S_ .f32) (main_arg4 : FVec F S_ .f32) (main_arg5 : FVec F S_ .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1000x4x1024 .f32 := Host.absf main_arg1
  let main_cst_0 : FVec F S_ .f32 := constant S_ .f32 0x7F800000#32
  let main_v5 : FVec F S1000x4x1024 .f32 := broadcastInDim S1000x4x1024 ![] bcast_S_S1000x4x1024 main_cst_0
  let main_v6 : IVec S1000x4x1024 1 := cmpf .olt main_v4 main_v5
  let main_c_1 : IVec S_ 1 := constantI S_ 1 1#1
  let main_v7 : IVec S_ 1 := (fun x v => Host.reduce IntOp.andi x v reducesTo_S1000x4x1024_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg5 main_v12 main_v15
-- ==== Kernel.lean ====
abbrev S4096x1024 : Shape := ⟨2, ![4096, 1024]⟩
abbrev S1000x4x1024 : Shape := ⟨3, ![1000, 4, 1024]⟩
abbrev S_ : Shape := ⟨0, ![]⟩
abbrev S4x1000x1024 : Shape := ⟨3, ![4, 1000, 1024]⟩
abbrev S1000x4 : Shape := ⟨2, ![1000, 4]⟩
abbrev S4x1000 : Shape := ⟨2, ![4, 1000]⟩
abbrev S4x1x1000 : Shape := ⟨3, ![4, 1, 1000]⟩
abbrev S4096x1000 : Shape := ⟨2, ![4096, 1000]⟩
abbrev S4096x1 : Shape := ⟨2, ![4096, 1]⟩
abbrev S256x1024 : Shape := ⟨2, ![256, 1024]⟩
abbrev S256x1000 : Shape := ⟨2, ![256, 1000]⟩
abbrev S256x1 : Shape := ⟨2, ![256, 1]⟩
abbrev S256 : Shape := ⟨1, ![256]⟩
abbrev S1x1000x1024 : Shape := ⟨3, ![1, 1000, 1024]⟩
abbrev S1000x1024 : Shape := ⟨2, ![1000, 1024]⟩
abbrev S1x1x1000 : Shape := ⟨3, ![1, 1, 1000]⟩
abbrev S1x1000 : Shape := ⟨2, ![1, 1000]⟩
abbrev S1024x1000 : Shape := ⟨2, ![1024, 1000]⟩
abbrev S4096x1001 : Shape := ⟨2, ![4096, 1001]⟩

abbrev nBuf : Space → Nat
  | .hbm => 38
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1000x4x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x1000x1024, .f32⟩
  | .hbm, ⟨7, _⟩ => ⟨S1000x4x1024, .f32⟩
  | .hbm, ⟨8, _⟩ => ⟨S_, .f32⟩
  | .hbm, ⟨9, _⟩ => ⟨S1000x4, .f32⟩
  | .hbm, ⟨10, _⟩ => ⟨S4x1000, .f32⟩
  | .hbm, ⟨11, _⟩ => ⟨S4x1x1000, .f32⟩
  | .hbm, ⟨12, _⟩ => ⟨S4096x1000, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1001, .f32⟩
  | .local _ .vmem, ⟨0, _⟩ => ⟨S256x1024, .f32⟩
  | .local _ .vmem, ⟨1, _⟩ => ⟨S256x1024, .f32⟩
  | .local _ .vmem, ⟨2, _⟩ => ⟨S4x1000x1024, .f32⟩
  | .local _ .vmem, ⟨3, _⟩ => ⟨S4x1x1000, .f32⟩
  | .local _ .vmem, ⟨4, _⟩ => ⟨S256x1000, .f32⟩
  | .local _ .vmem, ⟨5, _⟩ => ⟨S256x1000, .f32⟩
  | .local _ .vmem, ⟨6, _⟩ => ⟨S256x1, .f32⟩
  | .local _ .vmem, ⟨7, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_call0_cst : Ref sig .tc := ⟨.hbm, 14, rfl⟩
abbrev main_v6 : Ref sig .tc := ⟨.hbm, 15, rfl⟩
abbrev main_cst_0 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1000x4x1024_S4x1000x1024_1_0_2 : S1000x4x1024.Transposes [1, 0, 2] S4x1000x1024
  reducesTo_S1000x4x1024_S1000x4_d2 : S1000x4x1024.ReducesTo [2] S1000x4
  h_S_ : 0 < S_.numel
  transposes_S1000x4_S4x1000_1_0 : S1000x4.Transposes [1, 0] S4x1000
  bcast_S4x1000_S4x1x1000_0_2 : S4x1000.BroadcastsInDim S4x1x1000 (![0, 2] : Fin 2 → Fin S4x1x1000.rank)
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  reduces_S256x1024_S256 : S256x1024.Reduces [1] S256
  shapeCasts_S256_S256x1 : S256.ShapeCasts S256x1
  inb_S4x1000x1024_S1x1000x1024_0_0_0 : ∀ a, (![0, 0, 0] : Fin 3 → Nat) a + S1x1000x1024.size a ≤ S4x1000x1024.size a
  h_S1x1000x1024 : 0 < S1x1000x1024.numel
  shapeCasts_S1x1000x1024_S1000x1024 : S1x1000x1024.ShapeCasts S1000x1024
  inb_S4x1x1000_S1x1x1000_0_0_0 : ∀ a, (![0, 0, 0] : Fin 3 → Nat) a + S1x1x1000.size a ≤ S4x1x1000.size a
  h_S1x1x1000 : 0 < S1x1x1000.numel
  shapeCasts_S1x1x1000_S1x1000 : S1x1x1000.ShapeCasts S1x1000
  transposes_S1000x1024_p1_0_S1024x1000 : S1000x1024.Transposes [1, 0] S1024x1000
  broadcasts_S256x1_S256x1000 : S256x1.Broadcasts S256x1000
  broadcasts_S1x1000_S256x1000 : S1x1000.Broadcasts S256x1000
  inb_S4x1000x1024_S1x1000x1024_1_0_0 : ∀ a, (![1, 0, 0] : Fin 3 → Nat) a + S1x1000x1024.size a ≤ S4x1000x1024.size a
  inb_S4x1x1000_S1x1x1000_1_0_0 : ∀ a, (![1, 0, 0] : Fin 3 → Nat) a + S1x1x1000.size a ≤ S4x1x1000.size a
  inb_S4x1000x1024_S1x1000x1024_2_0_0 : ∀ a, (![2, 0, 0] : Fin 3 → Nat) a + S1x1000x1024.size a ≤ S4x1000x1024.size a
  inb_S4x1x1000_S1x1x1000_2_0_0 : ∀ a, (![2, 0, 0] : Fin 3 → Nat) a + S1x1x1000.size a ≤ S4x1x1000.size a
  inb_S4x1000x1024_S1x1000x1024_3_0_0 : ∀ a, (![3, 0, 0] : Fin 3 → Nat) a + S1x1000x1024.size a ≤ S4x1000x1024.size a
  inb_S4x1x1000_S1x1x1000_3_0_0 : ∀ a, (![3, 0, 0] : Fin 3 → Nat) a + S1x1x1000.size a ≤ S4x1x1000.size a
  inb_S256x1000_S256x1000_0_0 : ∀ a, (![0, 0] : Fin 2 → Nat) a + S256x1000.size a ≤ S256x1000.size a
  h_S256x1000 : 0 < S256x1000.numel
  reduces_S256x1000_S256 : S256x1000.Reduces [1] S256
  inb_S256x1_S256x1_0_0 : ∀ a, (![0, 0] : Fin 2 → Nat) a + S256x1.size a ≤ S256x1.size a
  h_S256x1 : 0 < S256x1.numel
  bcast_S_S4096x1 : S_.BroadcastsInDim S4096x1 (![] : Fin 0 → Fin S4096x1.rank)
  concatenates_S4096x1000_S4096x1_S4096x1001_d1 : Shape.Concatenates [S4096x1000, S4096x1] S4096x1001 1
  dot_S256x1024_S1024x1000_S256x1000_1_0_0_1_n_n_wf : DotDims.WF S256x1024 S1024x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1000x1024.size a ≤ S4x1000x1024.size a
  hwx0_1 : ∀ i : grid0.Coords, EltTy.bits .f32 = 32 ∨ (Rect.block (s := S4x1000x1024) S4x1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1x1000.size a ≤ S4x1x1000.size a
  hwx0_2 : ∀ i : grid0.Coords, EltTy.bits .f32 = 32 ∨ (Rect.block (s := S4x1x1000) S4x1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1000.size a ≤ S4096x1000.size a
  hwx0_3 : ∀ i : grid0.Coords, EltTy.bits .f32 = 32 ∨ (Rect.block (s := S4096x1000) S256x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x1024_S1024x1000_S256x1000_1_0_0_1_n_n : DotDims S256x1024 S1024x1000 S256x1000 where
  lhsContracting := [1]
  rhsContracting := [0]
  lhsNonContracting := [0]
  rhsNonContracting := [1]
  lhsBatch := []
  rhsBatch := []
  wf := dot_S256x1024_S1024x1000_S256x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S256x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1000x4x1024 : Shape := ⟨3, ![1000, 4, 1024]⟩
abbrev S_ : Shape := ⟨0, ![]⟩
abbrev S4000x1024 : Shape := ⟨2, ![4000, 1024]⟩
abbrev S4096 : Shape := ⟨1, ![4096]⟩
abbrev S4096x1 : Shape := ⟨2, ![4096, 1]⟩
abbrev S4000 : Shape := ⟨1, ![4000]⟩
abbrev S1x4000 : Shape := ⟨2, ![1, 4000]⟩
abbrev S1024x4000 : Shape := ⟨2, ![1024, 4000]⟩
abbrev S4096x4000 : Shape := ⟨2, ![4096, 4000]⟩
abbrev S4096x1000x4 : Shape := ⟨3, ![4096, 1000, 4]⟩
abbrev S4096x1000 : Shape := ⟨2, ![4096, 1000]⟩
abbrev S4096x1001 : Shape := ⟨2, ![4096, 1001]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1000x4x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4000x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4000x1024, .f32⟩
  | .hbm, ⟨12, _⟩ => ⟨S_, .f32⟩
  | .hbm, ⟨13, _⟩ => ⟨S4000, .f32⟩
  | .hbm, ⟨14, _⟩ => ⟨S1x4000, .f32⟩
  | .hbm, ⟨15, _⟩ => ⟨S1024x4000, .f32⟩
  | .hbm, ⟨16, _⟩ => ⟨S4096x4000, .f32⟩
  | .hbm, ⟨17, _⟩ => ⟨S_, .f32⟩
  | .hbm, ⟨18, _⟩ => ⟨S4096x4000, .f32⟩
  | .hbm, ⟨19, _⟩ => ⟨S4096x4000, .f32⟩
  | .hbm, ⟨20, _⟩ => ⟨S4096x4000, .f32⟩
  | .hbm, ⟨21, _⟩ => ⟨S4096x4000, .f32⟩
  | .hbm, ⟨22, _⟩ => ⟨S4096x4000, .f32⟩
  | .hbm, ⟨23, _⟩ => ⟨S4096x4000, .f32⟩
  | .hbm, ⟨24, _⟩ => ⟨S_, .f32⟩
  | .hbm, ⟨25, _⟩ => ⟨S4096x4000, .f32⟩
  | .hbm, ⟨26, _⟩ => ⟨S4096x4000, .f32⟩
  | .hbm, ⟨27, _⟩ => ⟨S4096x4000, .f32⟩
  | .hbm, ⟨28, _⟩ => ⟨S4096x1000x4, .f32⟩
  | .hbm, ⟨29, _⟩ => ⟨S_, .f32⟩
  | .hbm, ⟨30, _⟩ => ⟨S4096x1000, .f32⟩
  | .hbm, ⟨31, _⟩ => ⟨S4096x1000, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1001, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_v21 : Ref sig .tc := ⟨.hbm, 33, rfl⟩
abbrev main_cst_4 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  shapeCasts_S1000x4x1024_S4000x1024 : S1000x4x1024.ShapeCasts S4000x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  reducesTo_S4000x1024_S4000_d1 : S4000x1024.ReducesTo [1] S4000
  bcast_S4000_S1x4000_1 : S4000.BroadcastsInDim S1x4000 (![1] : Fin 1 → Fin S1x4000.rank)
  transposes_S4000x1024_S1024x4000_1_0 : S4000x1024.Transposes [1, 0] S1024x4000
  bcast_S_S4096x4000 : S_.BroadcastsInDim S4096x4000 (![] : Fin 0 → Fin S4096x4000.rank)
  bcast_S4096x1_S4096x4000_0_1 : S4096x1.BroadcastsInDim S4096x4000 (![0, 1] : Fin 2 → Fin S4096x4000.rank)
  bcast_S1x4000_S4096x4000_0_1 : S1x4000.BroadcastsInDim S4096x4000 (![0, 1] : Fin 2 → Fin S4096x4000.rank)
  shapeCasts_S4096x4000_S4096x1000x4 : S4096x4000.ShapeCasts S4096x1000x4
  reducesTo_S4096x1000x4_S4096x1000_d2 : S4096x1000x4.ReducesTo [2] S4096x1000
  reducesTo_S4096x1000_S4096_d1 : S4096x1000.ReducesTo [1] S4096
  bcast_S_S4096x1 : S_.BroadcastsInDim S4096x1 (![] : Fin 0 → Fin S4096x1.rank)
  concatenates_S4096x1000_S4096x1_S4096x1001_d1 : Shape.Concatenates [S4096x1000, S4096x1] S4096x1001 1
  dot_S4096x1024_S1024x4000_S4096x4000_1_0_0_1_n_n_wf : DotDims.WF S4096x1024 S1024x4000 S4096x4000 [1] [0] [0] [1] [] []

variable [Facts₀]

def dot_S4096x1024_S1024x4000_S4096x4000_1_0_0_1_n_n : DotDims S4096x1024 S1024x4000 S4096x4000 where
  lhsContracting := [1]
  rhsContracting := [0]
  lhsNonContracting := [0]
  rhsNonContracting := [1]
  lhsBatch := []
  rhsBatch := []
  wf := dot_S4096x1024_S1024x4000_S4096x4000_1_0_0_1_n_n_wf

class Facts : Prop extends Facts₀ where

variable [Facts]
-- ==== Proof.RefTail.lean ====
/-
  The scalar tail both programs end with, as one function.

  After the distances the reference computes, from the four scalars, the acceptance threshold
  running_mean + clip(relu(std_scale), 0, 5) · √running_var; from it and each point's least distance the logistic
  1 / (1 + exp(−(threshold − least distance) / temperature)); and joins that column to the first block as column 1000.
  The kernel's program applies the same operations to its region's two outputs, so the tail is named once here, over the
  two blocks and the four scalars, and never opened.
-/
import proofs.«169492_j26603027431729_1_alg».proof.Proof.RefReadPatched

noncomputable section

namespace Cert.ReferenceIdeal.RefValue

open Cert.ReferenceIdeal Cert.ReferenceIdeal.Gen Cert.ReferenceIdeal.ReadP
open Idealize.ShloMosaic

variable (x0 : (⟨S4096x1024, .f32⟩ : BufTy).Contents (Elt Ideal)) (x1 : (⟨S1000x4x1024, .f32⟩ : BufTy).Contents (Elt Ideal))

/-- What the reference does after the distances: the acceptance threshold from the four scalars, the logistic of
    (threshold − least distance) / temperature, joined to the first block as column 1000. Never opened: both programs
    apply it. -/
def tail (Y : FVec Ideal S4096x1000 .f32) (D : FVec Ideal S4096x1 .f32) (x2 x3 x4 x5 : FVec Ideal S_ .f32) :
    FVec Ideal S4096x1001 .f32 :=
  concatenate S4096x1001 1 [⟨S4096x1000, Y⟩,
    ⟨S4096x1, Host.divf (F := Ideal) (φ := .f32) (val_main_v36 (F := Ideal)) (addf (F := Ideal) (φ := .f32) (val_main_v34 (F := Ideal))
      (Host.exp (F := Ideal) (φ := .f32) (Host.negf (F := Ideal) (φ := .f32)
        (Host.divf (F := Ideal) (φ := .f32) (subf (F := Ideal) (φ := .f32) (val_main_v28 (F := Ideal) x2 x4 x5) D) (val_main_v30 (F := Ideal) x3)))))⟩]
    concatenates_S4096x1000_S4096x1_S4096x1001_d1

theorem result_eq_tail (x2 x3 x4 x5 : FVec Ideal S_ .f32) :
    val_main_v38 (F := Ideal) x0 x1 x2 x3 x4 x5 = tail (val_main_v20 (F := Ideal) x0 x1) (val_main_v27 (F := Ideal) x0 x1) x2 x3 x4 x5 := rfl

end Cert.ReferenceIdeal.RefValue

end
-- ==== Proof.LibMinFold.lean ====
/-
  Minima on the extended reals, as reductions take them.

  A reduction with a minimum body starts from the f32 word of +∞, which denotes the top element, and folds `min` over an
  axis; a kernel may instead chain pairwise minima. Both are the greatest lower bound of the values, so they agree, with
  nothing assumed finite. Also here: a fold over `Fin n` re-read over `Fin m` when n = m (the axis length of a shape is a
  term that only REDUCES to its literal, and the two enumerations should never be compared by unfolding them), and
  0 − a = −a on every extended real (0 − ⊤ = ⊥ = −⊤: no finiteness).
-/
import Idealize.ShloMosaic.PureOps.Ideal
import Idealize.ShloMosaic.PureOps.Ideal.Laws

noncomputable section

namespace Cert.LibMinFold

open Idealize.ShloMosaic

/-- The f32 word 0x7F800000 denotes the top element of the extended reals. -/
theorem ofBits_pinf : (Ideal.ofBits .f32 0x7F800000#32 : EReal) = ⊤ := by simp [Ideal.ofBits, Ideal.ieee]

/-- The f32 zero word minus a value is the value's negation, on every extended real. -/
theorem zero_sub_eq_neg (a : EReal) : (Ideal.ofBits .f32 0x00000000#32 : EReal) - a = -a := by
  rw [Ideal.ofBits_zero_f32, sub_eq_add_neg, zero_add]

/-- A fold over `Fin n` read over `Fin m` when n = m: the index recast, nothing recomputed. Give `n` as the term the
    library lemma produced (for example `S.size 1`) and `m` as the literal, with `h := rfl`. -/
theorem fold_fin_cast {n m : Nat} (h : n = m) (op : EReal → EReal → EReal) [Std.Commutative op] [Std.Associative op]
    (b : EReal) (f : Fin n → EReal) :
    (Finset.univ : Finset (Fin n)).fold op b f = (Finset.univ : Finset (Fin m)).fold op b fun k => f (Fin.cast h.symm k) := by
  subst h; rfl

/-- A fold of `min` from +∞ over four values is their left-nested minimum: both are the greatest lower bound. -/
theorem fold_min_four (f : Fin 4 → EReal) :
    (Finset.univ : Finset (Fin 4)).fold min (Ideal.ofBits .f32 0x7F800000#32 : EReal) f = min (min (min (f 0) (f 1)) (f 2)) (f 3) := by
  refine eq_of_forall_le_iff fun z => ?_
  rw [Finset.le_fold_min, ofBits_pinf]
  simp only [le_top, true_and, Finset.mem_univ, forall_true_left, le_min_iff, Fin.forall_fin_succ, Fin.forall_fin_zero_pi, and_assoc]
  constructor
  · rintro ⟨h0, h1, h2, h3, -⟩; exact ⟨h0, h1, h2, h3⟩
  · rintro ⟨h0, h1, h2, h3⟩; exact ⟨h0, h1, h2, h3, fun i => i.elim0⟩

end Cert.LibMinFold

end
-- ==== Proof.Spec.lean ====
/-
  Nearest-centroid distances: the specification.

  A point x_b (row b of a 4096 × 1024 array) and a centroid w_{c,n} (class c < 1000, slot n < 4, 1024 coordinates) are at
  distance  d(b,c,n) = √ max(‖x_b‖² − 2·⟨x_b, w_{c,n}⟩ + ‖w_{c,n}‖², 0),  the three terms added in that order. A class's
  distance is the least over its four centroids, and a point's least distance is the least over the thousand classes,
  started from +∞. Both programs return the negated class distances and, after a common scalar tail, a function of the
  point's least distance. Everything is an extended real; no law used here needs an entry to be finite: sums are only
  re-indexed, never regrouped, and minima are compared by their universal property.
-/
import Idealize.ShloMosaic.PureOps.Ideal
import Idealize.ShloMosaic.PureOps.Ideal.Laws
import Idealize.ShloMosaic.Lib.ValueIdx
import proofs.«169492_j26603027431729_1_alg».proof.Proof.LibMinFold

noncomputable section

namespace Cert.Knn

open Idealize.ShloMosaic Idealize.ShloMosaic.ValueIdx

/-- The points: 4096 rows of 1024 coordinates. -/
abbrev Pts := (⟨2, ![4096, 1024]⟩ : Shape).Idx → EReal
/-- The centroids: 1000 classes, 4 centroids each, 1024 coordinates. -/
abbrev Cen := (⟨3, ![1000, 4, 1024]⟩ : Shape).Idx → EReal

/-- The three float words the distance is written with: 2, 0 and +∞. -/
abbrev two : EReal := Ideal.ofBits .f32 0x40000000#32
abbrev zero : EReal := Ideal.ofBits .f32 0x00000000#32
abbrev pinf : EReal := Ideal.ofBits .f32 0x7F800000#32

/-- The word 0x7F800000 is the top element. -/
theorem pinf_eq_top : pinf = ⊤ := Cert.LibMinFold.ofBits_pinf

variable (x : Pts) (w : Cen)

/-- ‖x_b‖². -/
def rowSq (b : Fin 4096) : EReal := ∑ k : Fin 1024, x (ix2 b k) * x (ix2 b k)
/-- ‖w_{c,n}‖². -/
def cenSq (c : Fin 1000) (n : Fin 4) : EReal := ∑ k : Fin 1024, w (ix3 c n k) * w (ix3 c n k)
/-- ⟨x_b, w_{c,n}⟩. -/
def inner (b : Fin 4096) (c : Fin 1000) (n : Fin 4) : EReal := ∑ k : Fin 1024, x (ix2 b k) * w (ix3 c n k)

/-- d(b,c,n). -/
def dist (b : Fin 4096) (c : Fin 1000) (n : Fin 4) : EReal :=
  Ideal.sqrt (max ((rowSq x b - two * inner x w b c n) + cenSq w c n) zero)

/-- The least of four values, nested from the left as a chain of pairwise minima takes it. -/
def min4 (f : Fin 4 → EReal) : EReal := min (min (min (f 0) (f 1)) (f 2)) (f 3)

/-- The class distance: the least of d(b,c,·). -/
def classDist (b : Fin 4096) (c : Fin 1000) : EReal := min4 fun n => dist x w b c n

/-- The first result block: the negated class distances. -/
def negDist : (⟨2, ![4096, 1000]⟩ : Shape).Idx → EReal := fun i => -(classDist x w (i 0) (i 1))

/-- A point's least class distance, folded from +∞, as a column. -/
def minDist : (⟨2, ![4096, 1]⟩ : Shape).Idx → EReal :=
  fun i => (Finset.univ : Finset (Fin 1000)).fold min pinf fun c => classDist x w (i 0) c

theorem negDist_apply (b : Fin 4096) (c : Fin 1000) : negDist x w (ix2 b c) = -(classDist x w b c) := rfl

theorem minDist_apply (b : Fin 4096) (u : Fin 1) :
    minDist x w (ix2 b u) = (Finset.univ : Finset (Fin 1000)).fold min pinf fun c => classDist x w b c := rfl

/-- A fold of `min` from +∞ over four values is their nested minimum: both are the greatest lower bound. -/
theorem fold_min_four (f : Fin 4 → EReal) : (Finset.univ : Finset (Fin 4)).fold min pinf f = min4 f :=
  Cert.LibMinFold.fold_min_four f

/-- A fold over `Fin n` read over `Fin m` when n = m: the index recast, nothing recomputed. -/
theorem fold_fin_cast {n m : Nat} (h : n = m) (op : EReal → EReal → EReal) [Std.Commutative op] [Std.Associative op]
    (b : EReal) (f : Fin n → EReal) :
    (Finset.univ : Finset (Fin n)).fold op b f = (Finset.univ : Finset (Fin m)).fold op b fun k => f (Fin.cast h.symm k) :=
  Cert.LibMinFold.fold_fin_cast h op b f

/-- Zero minus a value is its negation, on every extended real. -/
theorem zero_sub_eq_neg (a : EReal) : zero - a = -a := Cert.LibMinFold.zero_sub_eq_neg a

end Cert.Knn

end
-- ==== Proof.RefValue.lean ====
/-
  The reference program read as the specification.

  The reference flattens the centroids to 4000 rows, row 4c + n being centroid (c, n), forms all 4096 × 4000 distances
  at once, folds them back to (b, c, n) and takes the least over n, then over c. Read at an index each stage is the
  specification's: row 4c + n of the flattened array is centroid (c, n), because both arrays are row-major and position
  (4c + n)·1024 + k of the flat one is position (c·4 + n)·1024 + k of the 1000 × 4 × 1024 one; likewise column 4c + n of the
  4096 × 4000 array is entry (c, n) of the 4096 × 1000 × 4 one. The two reduces with a minimum body are read over a variable
  array first, so that the 4096 × 4000 computation underneath is never opened.
-/
import proofs.«169492_j26603027431729_1_alg».proof.Proof.RefReadPatched
import proofs.«169492_j26603027431729_1_alg».proof.Proof.RefTail
import proofs.«169492_j26603027431729_1_alg».proof.Proof.Spec

noncomputable section

namespace Cert.ReferenceIdeal.RefValue

open Cert.ReferenceIdeal Cert.ReferenceIdeal.Gen Cert.ReferenceIdeal.ReadP Cert.Knn
open Idealize.ShloMosaic Idealize.ShloMosaic.ValueIdx

variable (x0 : (⟨S4096x1024, .f32⟩ : BufTy).Contents (Elt Ideal)) (x1 : (⟨S1000x4x1024, .f32⟩ : BufTy).Contents (Elt Ideal))

/-- Row 4c + n of the flattened centroids. -/
def flat (c : Fin 1000) (n : Fin 4) : Fin 4000 := ⟨c.val * 4 + n.val, by have := c.isLt; have := n.isLt; omega⟩

/-- ‖x_b‖², broadcast along the 4000 columns. -/
theorem ref_rowSq (b : Fin 4096) (j : Fin 4000) : val_main_v11 (F := Ideal) x0 (ix2 b j) = rowSq x0 b := by
  rw [val_main_v11_apply, val_main_v3_apply, val_main_v2_apply]
  have e : ∀ k : Fin 1024, idx_main_v2 (idx_main_v3 (idx_main_v11 (ix2 b j))) k = ix2 b k := fun k =>
    funext fun a => Fin.ext (by match a with | ⟨0, _⟩ => rfl | ⟨1, _⟩ => rfl)
  simp only [e]
  show Ideal.ofBits .f32 0x00000000#32 + ∑ k : Fin 1024, x0 (ix2 b k) * x0 (ix2 b k) = _
  rw [Ideal.ofBits_zero_f32, zero_add]
  rfl

/-- A flattened row read back as class, slot and coordinate. -/
theorem flat_row (c : Fin 1000) (n : Fin 4) (k : Fin 1024) : idx_main_v0 (ix2 (flat c n) k) = ix3 c n k := by
  have hc := c.isLt; have hn := n.isLt; have hk := k.isLt
  funext a; apply Fin.ext
  match a with
  | ⟨0, _⟩ => show ((c.val * 4 + n.val) * 1024 + k.val) / 4096 = c.val; omega
  | ⟨1, _⟩ => show ((c.val * 4 + n.val) * 1024 + k.val) / 1024 % 4 = n.val; omega
  | ⟨2, _⟩ => show ((c.val * 4 + n.val) * 1024 + k.val) % 1024 = k.val; omega

/-- ‖w_{c,n}‖², broadcast along the 4096 rows. -/
theorem ref_cenSq (b : Fin 4096) (c : Fin 1000) (n : Fin 4) : val_main_v13 (F := Ideal) x1 (ix2 b (flat c n)) = cenSq x1 c n := by
  rw [val_main_v13_apply, val_main_v6_apply, val_main_v5_apply]
  have e : ∀ k : Fin 1024, idx_main_v5 (idx_main_v6 (idx_main_v13 (ix2 b (flat c n)))) k = ix2 (flat c n) k := fun k =>
    funext fun a => Fin.ext (by match a with | ⟨0, _⟩ => rfl | ⟨1, _⟩ => rfl)
  simp only [e]
  show Ideal.ofBits .f32 0x00000000#32 + ∑ k : Fin 1024, val_main_v0 (F := Ideal) x1 (ix2 (flat c n) k) * val_main_v0 (F := Ideal) x1 (ix2 (flat c n) k) = _
  rw [Ideal.ofBits_zero_f32, zero_add]
  simp only [val_main_v0_apply, flat_row]
  rfl

/-- ⟨x_b, w_{c,n}⟩: entry (b, 4c + n) of the product with the transposed flattened centroids. -/
theorem ref_inner (b : Fin 4096) (c : Fin 1000) (n : Fin 4) : val_main_v8 (F := Ideal) x0 x1 (ix2 b (flat c n)) = inner x0 x1 b c n := by
  rw [val_main_v8_apply]
  have el : ∀ k : Fin 1024, lidx_main_v8 (ix2 b (flat c n)) k = ix2 b k := fun k =>
    funext fun a => Fin.ext (by match a with | ⟨0, _⟩ => rfl | ⟨1, _⟩ => rfl)
  have er : ∀ k : Fin 1024, idx_main_v7 (ridx_main_v8 (ix2 b (flat c n)) k) = ix2 (flat c n) k := fun k =>
    funext fun a => Fin.ext (by match a with | ⟨0, _⟩ => rfl | ⟨1, _⟩ => rfl)
  simp only [el, val_main_v7_apply, er, val_main_v0_apply, flat_row]
  rfl

/-- d(b,c,n), at column 4c + n. -/
theorem ref_dist (b : Fin 4096) (c : Fin 1000) (n : Fin 4) : val_main_v17 (F := Ideal) x0 x1 (ix2 b (flat c n)) = dist x0 x1 b c n := by
  show Ideal.sqrt (max ((val_main_v11 (F := Ideal) x0 (ix2 b (flat c n)) - val_main_v9 (F := Ideal) (ix2 b (flat c n)) * val_main_v8 (F := Ideal) x0 x1 (ix2 b (flat c n)))
    + val_main_v13 (F := Ideal) x1 (ix2 b (flat c n))) (val_main_v15 (F := Ideal) (ix2 b (flat c n)))) = _
  rw [ref_rowSq, ref_inner, ref_cenSq, val_main_v9_apply, val_main_v15_apply]
  rfl

/-- Entry (b, c, n) of the folded array is column 4c + n of row b. -/
theorem fold_col (b : Fin 4096) (c : Fin 1000) (n : Fin 4) : idx_main_v18 (ix3 b c n) = ix2 b (flat c n) := by
  have hb := b.isLt; have hc := c.isLt; have hn := n.isLt
  funext a; apply Fin.ext
  match a with
  | ⟨0, _⟩ => show ((b.val * 1000 + c.val) * 4 + n.val) / 4000 = b.val; omega
  | ⟨1, _⟩ => show ((b.val * 1000 + c.val) * 4 + n.val) % 4000 = c.val * 4 + n.val; omega

theorem ref_folded (b : Fin 4096) (c : Fin 1000) (n : Fin 4) : val_main_v18 (F := Ideal) x0 x1 (ix3 b c n) = dist x0 x1 b c n := by
  rw [val_main_v18_apply, fold_col, ref_dist]

/-! ## The two host reduces with `min`, over a variable array -/

/-- Putting slot n back into (b, c). -/
theorem lift_slot (h : S4096x1000x4.Reduces [2] S4096x1000) (b : Fin 4096) (c : Fin 1000) (n : Fin (S4096x1000x4.size 2)) :
    h.lift (ix2 b c) n = ix3 b c (⟨n.val, n.isLt⟩ : Fin 4) := by
  funext a; apply Fin.ext
  fin_cases a <;> rfl

/-- From +∞ the host's reduce with a minimum body over the four slots, at (b, c), is the nested minimum there. -/
theorem reduce_slots (y : FVec Ideal S4096x1000x4 .f32) (init : FVec Ideal S_ .f32) (hi : init (Shape.Idx.first h_S_) = pinf)
    (b : Fin 4096) (c : Fin 1000) :
    Host.reduce FloatOps.minimumf y init reducesTo_S4096x1000x4_S4096x1000_d2 h_S_ (ix2 b c) = min4 fun n => y (ix3 b c n) := by
  have h : S4096x1000x4.Reduces [2] S4096x1000 := by decide
  refine (Host.reduce_eq_fold_single FloatOps.minimumf y init reducesTo_S4096x1000x4_S4096x1000_d2 h h_S_ (ix2 b c)).trans ?_
  rw [hi]
  refine (fold_fin_cast (n := S4096x1000x4.size 2) (m := 4) rfl (min : EReal → EReal → EReal) pinf (y ∘ h.lift (ix2 b c))).trans ?_
  refine (congrArg (fun f => Finset.fold min pinf f (Finset.univ : Finset (Fin 4))) (funext fun n => ?_)).trans
    (fold_min_four fun n => y (ix3 b c n))
  exact congrArg y (lift_slot h b c (Fin.cast rfl n))

/-- Putting class c back into row b. -/
theorem lift_class (h : S4096x1000.Reduces [1] S4096) (b : Fin 4096) (c : Fin (S4096x1000.size 1)) :
    h.lift (ix1 b) c = ix2 b (⟨c.val, c.isLt⟩ : Fin 1000) := by
  funext a; apply Fin.ext
  fin_cases a <;> rfl

/-- From +∞ the host's reduce with a minimum body over the thousand classes, at row b, is the fold of `min` there. -/
theorem reduce_classes (y : FVec Ideal S4096x1000 .f32) (init : FVec Ideal S_ .f32) (hi : init (Shape.Idx.first h_S_) = pinf)
    (b : Fin 4096) :
    Host.reduce FloatOps.minimumf y init reducesTo_S4096x1000_S4096_d1 h_S_ (ix1 b)
      = (Finset.univ : Finset (Fin 1000)).fold min pinf fun c => y (ix2 b c) := by
  have h : S4096x1000.Reduces [1] S4096 := by decide
  refine (Host.reduce_eq_fold_single FloatOps.minimumf y init reducesTo_S4096x1000_S4096_d1 h h_S_ (ix1 b)).trans ?_
  rw [hi]
  refine (fold_fin_cast (n := S4096x1000.size 1) (m := 1000) rfl (min : EReal → EReal → EReal) pinf (y ∘ h.lift (ix1 b))).trans ?_
  refine congrArg (fun f => Finset.fold min pinf f (Finset.univ : Finset (Fin 1000))) (funext fun c => ?_)
  exact congrArg y (lift_class h b (Fin.cast rfl c))

/-! ## The reference's two blocks -/

/-- The class distance: the reduce over the four slots, from +∞. -/
theorem ref_classDist (b : Fin 4096) (c : Fin 1000) : val_main_v19 (F := Ideal) x0 x1 (ix2 b c) = classDist x0 x1 b c := by
  unfold val_main_v19
  exact (reduce_slots (val_main_v18 (F := Ideal) x0 x1) (val_main_cst_3 (F := Ideal)) rfl b c).trans
    (congrArg min4 (funext fun n => ref_folded x0 x1 b c n))

/-- The first result block. -/
theorem ref_negDist : val_main_v20 (F := Ideal) x0 x1 = negDist x0 x1 := by
  funext i
  obtain ⟨b, c, rfl⟩ : ∃ (b : Fin 4096) (c : Fin 1000), i = ix2 b c := ⟨i 0, i 1, eq_ix2 i⟩
  refine (val_main_v20_apply (F := Ideal) x0 x1 (ix2 b c)).trans ?_
  refine (congrArg (FloatOps.hostNegf (F := Ideal) (φ := .f32)) (ref_classDist x0 x1 b c)).trans ?_
  exact (negDist_apply x0 x1 b c).symm

/-- A point's least class distance, as a column. -/
theorem ref_minDist : val_main_v27 (F := Ideal) x0 x1 = minDist x0 x1 := by
  funext i
  obtain ⟨b, u, rfl⟩ : ∃ (b : Fin 4096) (u : Fin 1), i = ix2 b u := ⟨i 0, i 1, eq_ix2 i⟩
  rw [val_main_v27_apply]
  have ei : idx_main_v27 (ix2 b u) = ix1 b := funext fun a => Fin.ext (by match a with | ⟨0, _⟩ => rfl)
  rw [ei]
  unfold val_main_v26
  refine (reduce_classes (val_main_v19 (F := Ideal) x0 x1) (val_main_cst_6 (F := Ideal)) rfl b).trans ?_
  refine (congrArg (fun f => Finset.fold min pinf f (Finset.univ : Finset (Fin 1000)))
    (funext fun c => ref_classDist x0 x1 b c)).trans ?_
  exact (minDist_apply x0 x1 b u).symm

/-- The reference's result: the tail of the specification's two blocks. -/
theorem result_eq (x2 x3 x4 x5 : FVec Ideal S_ .f32) :
    val_main_v38 (F := Ideal) x0 x1 x2 x3 x4 x5 = tail (negDist x0 x1) (minDist x0 x1) x2 x3 x4 x5 := by
  rw [result_eq_tail, ref_negDist, ref_minDist]

end Cert.ReferenceIdeal.RefValue

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.KernelBlock.lean ====
/-
  The kernel's body at one grid point, read at an index.

  A grid point holds 256 points (a 256 × 1024 block x), all the centroids slot-major (4 × 1000 × 1024, w) and their squared
  norms (4 × 1 × 1000, s). For each slot n it forms, for row p and class q,
      √ max((‖x_p‖² − 2·∑ₖ x(p,k)·w(n,q,k)) + s(n,0,q), 0),
  keeps the running least over n = 0, 1, 2, 3, stores zero minus it, and stores the least over the 1000 classes, from +∞,
  as a column. The matrix product is a plain [256,1024] × [1024,1000] one against the transposed slot; a change of float
  format is the identity on the extended reals.
-/
import proofs.«169492_j26603027431729_1_alg».proof.Proof.Gen.KernelIdeal.Frame
import proofs.«169492_j26603027431729_1_alg».proof.Proof.Spec
import proofs.«169492_j26603027431729_1_alg».proof.Proof.LibKeepdimsLayout
import proofs.«169492_j26603027431729_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.Knn
open Idealize.ShloMosaic Idealize.ShloMosaic.ValueIdx

/-! ## One slot -/

/-- The product of the block with one transposed centroid slot. -/
def prod (v1 : FVec Ideal S256x1024 .bf16) (vc : Vec Ideal S1x1000x1024 .f32) : FVec Ideal S256x1000 .f32 :=
  matmul dot_S256x1024_S1024x1000_S256x1000_1_0_0_1_n_n none v1
    (transpose S1024x1000 [1, 0] (truncf .bf16 (shapeCast S1000x1024 vc shapeCasts_S1x1000x1024_S1000x1024) bitsLt_bf16_f32)
      transposes_S1000x1024_p1_0_S1024x1000)
    (constant S256x1000 .f32 0x00000000#32)

/-- Entry (p, q) of the product: ∑ₖ x(p,k) · w(0,q,k) of the loaded slot. -/
theorem prod_apply (v1 : FVec Ideal S256x1024 .bf16) (vc : Vec Ideal S1x1000x1024 .f32) (p : Fin 256) (q : Fin 1000) :
    prod v1 vc (ix2 p q) = ∑ k : Fin 1024, v1 (ix2 p k) * vc (ix3 (0 : Fin 1) q k) := by
  refine (Cert.LibPlainDot.matmul_zero_apply (M := 256) (K := 1024) (N := 1000) dot_S256x1024_S1024x1000_S256x1000_1_0_0_1_n_n_wf none v1
    (transpose S1024x1000 [1, 0] (truncf .bf16 (shapeCast S1000x1024 vc shapeCasts_S1x1000x1024_S1000x1024) bitsLt_bf16_f32)
      transposes_S1000x1024_p1_0_S1024x1000) p q).trans ?_
  refine Finset.sum_congr rfl fun k _ => congrArg (v1 (ix2 p k) * ·) ?_
  refine (transpose_ix2_apply (a := 1000) (b := 1024) _ transposes_S1000x1024_p1_0_S1024x1000 k q).trans ?_
  exact shapeCast_1ab_ab_apply (a := 1000) (b := 1024) vc shapeCasts_S1x1000x1024_S1000x1024 q k

/-- One slot's distances for the block: from the block in bf16 (`v1`), its rows' squared norms as a column (`v4`), the
    loaded slot (`vc`) and its squared norms (`vs`). -/
def slot (v1 : FVec Ideal S256x1024 .bf16) (v4 : FVec Ideal S256x1 .f32) (vc : Vec Ideal S1x1000x1024 .f32)
    (vs : Vec Ideal S1x1x1000 .f32) : FVec Ideal S256x1000 .f32 :=
  sqrt (maximumf
    (addf (subf (broadcastTo S256x1000 v4 broadcasts_S256x1_S256x1000)
        (mulf (broadcast S256x1000 (Scalar.ofBits .f32 0x40000000#32)) (prod v1 vc)))
      (broadcastTo S256x1000 (shapeCast S1x1000 vs shapeCasts_S1x1x1000_S1x1000) broadcasts_S1x1000_S256x1000))
    (broadcast S256x1000 (Scalar.ofBits .f32 0x00000000#32)))

theorem slot_apply (v1 : FVec Ideal S256x1024 .bf16) (v4 : FVec Ideal S256x1 .f32) (vc : Vec Ideal S1x1000x1024 .f32)
    (vs : Vec Ideal S1x1x1000 .f32) (p : Fin 256) (q : Fin 1000) :
    slot v1 v4 vc vs (ix2 p q)
      = Ideal.sqrt (max ((v4 (ix2 p (0 : Fin 1)) - two * ∑ k : Fin 1024, v1 (ix2 p k) * vc (ix3 (0 : Fin 1) q k))
          + vs (ix3 (0 : Fin 1) (0 : Fin 1) q)) zero) := by
  have e1 : broadcastTo S256x1000 v4 broadcasts_S256x1_S256x1000 (ix2 p q) = v4 (ix2 p (0 : Fin 1)) :=
    Cert.KernelIdeal.Val.broadcastTo_a1_ab_apply (a := 256) (b := 1000) v4 broadcasts_S256x1_S256x1000 p q
  have e2 : broadcastTo S256x1000 (shapeCast S1x1000 vs shapeCasts_S1x1x1000_S1x1000) broadcasts_S1x1000_S256x1000 (ix2 p q)
      = vs (ix3 (0 : Fin 1) (0 : Fin 1) q) :=
    (broadcastTo_1b_ab_apply (a := 256) (b := 1000) _ broadcasts_S1x1000_S256x1000 p q).trans
      (shapeCast_1ab_ab_apply (a := 1) (b := 1000) vs shapeCasts_S1x1x1000_S1x1000 (0 : Fin 1) q)
  show Ideal.sqrt (max ((broadcastTo S256x1000 v4 broadcasts_S256x1_S256x1000 (ix2 p q) - two * prod v1 vc (ix2 p q))
      + broadcastTo S256x1000 (shapeCast S1x1000 vs shapeCasts_S1x1x1000_S1x1000) broadcasts_S1x1000_S256x1000 (ix2 p q)) zero) = _
  rw [e1, e2, prod_apply]

/-! ## The payloads over slots -/

theorem pay4_eq (v0 : Vec Ideal S256x1024 .f32) (v5 : Vec Ideal S1x1000x1024 .f32) (v7 : Vec Ideal S1x1x1000 .f32)
    (v21 : Vec Ideal S1x1000x1024 .f32) (v23 : Vec Ideal S1x1x1000 .f32) :
    k0_pay4 v0 v5 v7 v21 v23 = minimumf (slot (k0_pay2 v0) (k0_pay3 v0) v5 v7) (slot (k0_pay2 v0) (k0_pay3 v0) v21 v23) := rfl

theorem pay5_eq (v1 : FVec Ideal S256x1024 .bf16) (v4 : FVec Ideal S256x1 .f32) (v37 : FVec Ideal S256x1000 .f32)
    (v38 : Vec Ideal S1x1000x1024 .f32) (v40 : Vec Ideal S1x1x1000 .f32) (v55 : Vec Ideal S1x1000x1024 .f32) (v57 : Vec Ideal S1x1x1000 .f32) :
    k0_pay5 v1 v4 v37 v38 v40 v55 v57 = minimumf (minimumf v37 (slot v1 v4 v38 v40)) (slot v1 v4 v55 v57) := rfl

theorem pay6_eq (v1 : FVec Ideal S256x1024 .bf16) (v4 : FVec Ideal S256x1 .f32) (v37 : FVec Ideal S256x1000 .f32)
    (v38 : Vec Ideal S1x1000x1024 .f32) (v40 : Vec Ideal S1x1x1000 .f32) (v55 : Vec Ideal S1x1000x1024 .f32) (v57 : Vec Ideal S1x1x1000 .f32) :
    k0_pay6 v1 v4 v37 v38 v40 v55 v57
      = subf (broadcast S256x1000 (Scalar.ofBits .f32 0x00000000#32)) (k0_pay5 v1 v4 v37 v38 v40 v55 v57) := rfl

/-! ## The rows' squared norms and the least over the classes -/

/-- Putting coordinate k back into row p. -/
theorem lift_row {n : Nat} (h : (⟨2, ![256, n]⟩ : Shape).Reduces [1] (⟨1, ![256]⟩ : Shape)) (p : Fin 256)
    (k : Fin ((⟨2, ![256, n]⟩ : Shape).size 1)) : h.lift (ix1 p) k = ix2 p (⟨k.val, k.isLt⟩ : Fin n) := by
  funext a; apply Fin.ext
  fin_cases a <;> rfl

/-- ‖x_p‖² as the body sums it, read in the column. -/
theorem pay3_apply (v0 : FVec Ideal S256x1024 .f32) (p : Fin 256) (u : Fin 1) :
    k0_pay3 (F := Ideal) v0 (ix2 p u) = ∑ k : Fin 1024, v0 (ix2 p k) * v0 (ix2 p k) := by
  have hφ : FKind.Formats .f32 := .inl rfl
  show shapeCast S256x1 (multiReduction .add [1] S256 (mulf v0 v0) 0x00000000#32 reduces_S256x1024_S256 hφ rfl) shapeCasts_S256_S256x1 (ix2 p u) = _
  refine (Cert.KernelIdeal.Val.shapeCast_a_a1_apply (a := 256)
    (multiReduction .add [1] S256 (mulf v0 v0) 0x00000000#32 reduces_S256x1024_S256 hφ rfl) shapeCasts_S256_S256x1 p u).trans ?_
  refine (Ideal.multiReduction_add_single (mulf v0 v0) 0x00000000#32 reduces_S256x1024_S256 hφ rfl (ix1 p)).trans ?_
  exact Finset.sum_congr rfl fun k _ => congrArg (fun i => v0 i * v0 i) (lift_row reduces_S256x1024_S256 p k)

/-- The column of least distances: the fold of `min` from +∞ over the 1000 classes. -/
theorem pay1_apply (v71 : FVec Ideal S256x1000 .f32) (p : Fin 256) (u : Fin 1) :
    k0_pay1 v71 (ix2 p u) = (Finset.univ : Finset (Fin 1000)).fold min pinf fun q => v71 (ix2 p q) := by
  have hφ : FKind.Formats .f32 := .inl rfl
  show shapeCast S256x1 (multiReduction .minimumf [1] S256 v71 0x7F800000#32 reduces_S256x1000_S256 hφ rfl) shapeCasts_S256_S256x1 (ix2 p u) = _
  refine (Cert.KernelIdeal.Val.shapeCast_a_a1_apply (a := 256)
    (multiReduction .minimumf [1] S256 v71 0x7F800000#32 reduces_S256x1000_S256 hφ rfl) shapeCasts_S256_S256x1 p u).trans ?_
  refine (multiReduction_minimumf_eq_fold v71 0x7F800000#32 reduces_S256x1000_S256 hφ rfl (ix1 p)).trans ?_
  refine (reduces_S256x1000_S256.fold_filter_drop_single FloatOps.minimumf (FloatOps.ofBits .f32 0x7F800000#32) v71 (ix1 p)).trans ?_
  refine (fold_fin_cast (n := S256x1000.size 1) (m := 1000) rfl (min : EReal → EReal → EReal) pinf
    (v71 ∘ reduces_S256x1000_S256.lift (ix1 p))).trans ?_
  refine congrArg (fun f => Finset.fold min pinf f (Finset.univ : Finset (Fin 1000))) (funext fun q => ?_)
  exact congrArg v71 (lift_row reduces_S256x1000_S256 p (Fin.cast rfl q))

/-! ## The body's stores, at an index, from the three blocks -/

/-- d for row p of the block and class q against slot n: the block's own rows, the slot-major centroids `x1` and their
    squared norms `x2`. -/
def bdist (x0 : Vec Ideal S256x1024 .f32) (x1 : Vec Ideal S4x1000x1024 .f32) (x2 : Vec Ideal S4x1x1000 .f32)
    (p : Fin 256) (q : Fin 1000) (n : Fin 4) : EReal :=
  Ideal.sqrt (max (((∑ k : Fin 1024, x0 (ix2 p k) * x0 (ix2 p k)) - two * ∑ k : Fin 1024, x0 (ix2 p k) * x1 (ix3 n q k))
    + x2 (ix3 n (0 : Fin 1) q)) zero)

theorem hz2 : (![0, 0] : Fin 2 → Nat) = fun _ => 0 := funext fun a => by fin_cases a <;> rfl

/-- The load of slot n of the centroids, read at (0, q, k), is the window at (n, q, k). -/
theorem ld_cen (x1 : Vec Ideal S4x1000x1024 .f32) (off : Fin 3 → Nat) (inb : ∀ a, off a + S1x1000x1024.size a ≤ S4x1000x1024.size a)
    (n : Fin 4) (h0 : off 0 = n.val) (h1 : off 1 = 0) (h2 : off 2 = 0) (q : Fin 1000) (k : Fin 1024) :
    View.ld x1 (Rect.unit (s := S4x1000x1024) off S1x1000x1024.size inb) (ix3 (0 : Fin 1) q k) = x1 (ix3 n q k) := by
  show x1 ((Rect.unit (s := S4x1000x1024) off S1x1000x1024.size inb).emb (ix3 (0 : Fin 1) q k)) = _
  refine congrArg x1 (funext fun a => Fin.ext ?_)
  match a with
  | ⟨0, _⟩ => show off 0 + 1 * 0 = n.val; omega
  | ⟨1, _⟩ => show off 1 + 1 * q.val = q.val; omega
  | ⟨2, _⟩ => show off 2 + 1 * k.val = k.val; omega

/-- The load of slot n of the squared norms, read at (0, 0, q), is the window at (n, 0, q). -/
theorem ld_sq (x2 : Vec Ideal S4x1x1000 .f32) (off : Fin 3 → Nat) (inb : ∀ a, off a + S1x1x1000.size a ≤ S4x1x1000.size a)
    (n : Fin 4) (h0 : off 0 = n.val) (h1 : off 1 = 0) (h2 : off 2 = 0) (q : Fin 1000) :
    View.ld x2 (Rect.unit (s := S4x1x1000) off S1x1x1000.size inb) (ix3 (0 : Fin 1) (0 : Fin 1) q) = x2 (ix3 n (0 : Fin 1) q) := by
  show x2 ((Rect.unit (s := S4x1x1000) off S1x1x1000.size inb).emb (ix3 (0 : Fin 1) (0 : Fin 1) q)) = _
  refine congrArg x2 (funext fun a => Fin.ext ?_)
  match a with
  | ⟨0, _⟩ => show off 0 + 1 * 0 = n.val; omega
  | ⟨1, _⟩ => show off 1 + 1 * 0 = 0; omega
  | ⟨2, _⟩ => show off 2 + 1 * q.val = q.val; omega

/-- One slot of the body, over the loads at slot n's offsets: d(p, q, n) of the blocks. -/
theorem slot_ld (x0 : Vec Ideal S256x1024 .f32) (x1 : Vec Ideal S4x1000x1024 .f32) (x2 : Vec Ideal S4x1x1000 .f32)
    (offc : Fin 3 → Nat) (inbc : ∀ a, offc a + S1x1000x1024.size a ≤ S4x1000x1024.size a)
    (offs : Fin 3 → Nat) (inbs : ∀ a, offs a + S1x1x1000.size a ≤ S4x1x1000.size a) (n : Fin 4)
    (hc0 : offc 0 = n.val) (hc1 : offc 1 = 0) (hc2 : offc 2 = 0) (hs0 : offs 0 = n.val) (hs1 : offs 1 = 0) (hs2 : offs 2 = 0)
    (p : Fin 256) (q : Fin 1000) :
    slot (k0_pay2 x0) (k0_pay3 x0) (View.ld x1 (Rect.unit (s := S4x1000x1024) offc S1x1000x1024.size inbc))
        (View.ld x2 (Rect.unit (s := S4x1x1000) offs S1x1x1000.size inbs)) (ix2 p q) = bdist x0 x1 x2 p q n := by
  rw [slot_apply, pay3_apply, ld_sq x2 offs inbs n hs0 hs1 hs2]
  simp only [ld_cen x1 offc inbc n hc0 hc1 hc2]
  rfl

/-- The running least after the four slots, at (p, q). -/
theorem pay5_chain_apply (x0 : Vec Ideal S256x1024 .f32) (x1 : Vec Ideal S4x1000x1024 .f32) (x2 : Vec Ideal S4x1x1000 .f32)
    (p : Fin 256) (q : Fin 1000) :
    k0_pay5 (k0_pay2 x0) (k0_pay3 x0) (k0_pay4 x0 (View.ld x1 r0_1) (View.ld x2 r0_2) (View.ld x1 r0_3) (View.ld x2 r0_4))
        (View.ld x1 r0_5) (View.ld x2 r0_6) (View.ld x1 r0_7) (View.ld x2 r0_8) (ix2 p q)
      = min4 (bdist x0 x1 x2 p q) := by
  rw [pay5_eq, pay4_eq, minimumf_apply, minimumf_apply, minimumf_apply,
    slot_ld x0 x1 x2 ![0, 0, 0] inb_S4x1000x1024_S1x1000x1024_0_0_0 ![0, 0, 0] inb_S4x1x1000_S1x1x1000_0_0_0 0 rfl rfl rfl rfl rfl rfl,
    slot_ld x0 x1 x2 ![1, 0, 0] inb_S4x1000x1024_S1x1000x1024_1_0_0 ![1, 0, 0] inb_S4x1x1000_S1x1x1000_1_0_0 1 rfl rfl rfl rfl rfl rfl,
    slot_ld x0 x1 x2 ![2, 0, 0] inb_S4x1000x1024_S1x1000x1024_2_0_0 ![2, 0, 0] inb_S4x1x1000_S1x1x1000_2_0_0 2 rfl rfl rfl rfl rfl rfl,
    slot_ld x0 x1 x2 ![3, 0, 0] inb_S4x1000x1024_S1x1000x1024_3_0_0 ![3, 0, 0] inb_S4x1x1000_S1x1x1000_3_0_0 3 rfl rfl rfl rfl rfl rfl]
  rfl

/-- The first output's buffer after the body: minus the least of the four distances. -/
theorem out3_apply (x0 : Vec Ideal S256x1024 .f32) (x1 : Vec Ideal S4x1000x1024 .f32) (x2 : Vec Ideal S4x1x1000 .f32)
    (p : Fin 256) (q : Fin 1000) : out0_3 x0 x1 x2 (ix2 p q) = -(min4 (bdist x0 x1 x2 p q)) := by
  unfold out0_3
  rw [View.canon_unit_zero hz2]
  simp only [View.ld_unit_zero (S := S256x1024) hz2]
  rw [pay6_eq, subf_apply, broadcast_apply, pay5_chain_apply]
  exact zero_sub_eq_neg _

/-- The second output's buffer after the body: the least over the classes, from +∞. -/
theorem out4_apply (x0 : Vec Ideal S256x1024 .f32) (x1 : Vec Ideal S4x1000x1024 .f32) (x2 : Vec Ideal S4x1x1000 .f32)
    (p : Fin 256) (u : Fin 1) :
    out0_4 x0 x1 x2 (ix2 p u) = (Finset.univ : Finset (Fin 1000)).fold min pinf fun q => min4 (bdist x0 x1 x2 p q) := by
  unfold out0_4
  rw [View.canon_unit_zero hz2]
  simp only [View.ld_unit_zero (S := S256x1024) hz2]
  rw [pay1_apply]
  exact congrArg (fun f => Finset.fold min pinf f (Finset.univ : Finset (Fin 1000))) (funext fun q => pay5_chain_apply x0 x1 x2 p q)

end Cert.KernelIdeal.Block

end
-- ==== Proof.KernelArrays.lean ====
/-
  From the grid points' blocks to the two whole arrays.

  Grid point t (of 16) holds rows 256t … 256t + 255 of the points; the slot-major centroids and their squared norms, which
  the host computes before the region (a transpose of the centroids; the sums of their squares over the coordinates,
  transposed and given a unit axis), are whole at every point. What point t writes back to each output is therefore rows
  256t … 256t + 255 of the specification's array; the sixteen blocks tile the 4096 rows, so each output array ends as the
  specification's.
-/
import proofs.«169492_j26603027431729_1_alg».proof.Proof.Gen.KernelIdeal.Frame
import proofs.«169492_j26603027431729_1_alg».proof.Proof.KernelBlock
import proofs.«169492_j26603027431729_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Arrays

open Cert.KernelIdeal Cert.KernelIdeal.Gen Cert.KernelIdeal.Block Cert.Knn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-- The points and the centroids as launched. -/
abbrev pts (c : Dev nD) : Pts := m ((c : Thread nD τ).loc main_arg0)
abbrev cen (c : Dev nD) : Cen := m ((c : Thread nD τ).loc main_arg1)

/-! ## What the host writes before the region -/

/-- The slot-major centroids: the transpose of the centroids. -/
theorem V_v0 (c : Dev nD) : (V m c main_v0 : S4x1000x1024.Idx → EReal)
    = transpose S4x1000x1024 [1, 0, 2] (cen m c) transposes_S1000x4x1024_S4x1000x1024_1_0_2 := by
  show StableHlo.after hostOps0 (fun b => m (c, b)) (Proc.devRef .tc main_v0) = _
  after_results

/-- The centroids' squared norms, slot-major with a unit axis. -/
theorem V_v4 (c : Dev nD) : (V m c main_v4 : S4x1x1000.Idx → EReal)
    = broadcastInDim S4x1x1000 ![0, 2] bcast_S4x1000_S4x1x1000_0_2 (transpose S4x1000 [1, 0]
        (Host.reduceAdd (F := Ideal) (mulf (cen m c) (cen m c)) (constant (F := Ideal) S_ .f32 0x00000000#32)
          reducesTo_S1000x4x1024_S1000x4_d2 h_S_) transposes_S1000x4_S4x1000_1_0) := by
  show StableHlo.after hostOps0 (fun b => m (c, b)) (Proc.devRef .tc main_v4) = _
  after_results

theorem v0_apply (c : Dev nD) (n : Fin 4) (q : Fin 1000) (k : Fin 1024) :
    (V m c main_v0 : S4x1000x1024.Idx → EReal) (ix3 n q k) = cen m c (ix3 q n k) :=
  (congrFun (V_v0 m c) (ix3 n q k)).trans
    (transpose_apply [1, 0, 2] (cen m c) transposes_S1000x4x1024_S4x1000x1024_1_0_2 (ix3 n q k) (ix3 q n k)
      fun b => match b with | ⟨0, _⟩ => rfl | ⟨1, _⟩ => rfl | ⟨2, _⟩ => rfl)

/-- The host's sum over the coordinates, from the zero word, at (q, n). -/
theorem coordSum_apply (y : FVec Ideal S1000x4x1024 .f32) (q : Fin 1000) (n : Fin 4) :
    Host.reduceAdd (F := Ideal) y (constant (F := Ideal) S_ .f32 0x00000000#32) reducesTo_S1000x4x1024_S1000x4_d2 h_S_ (ix2 q n)
      = ∑ k : Fin 1024, y (ix3 q n k) := by
  have h : S1000x4x1024.Reduces [2] S1000x4 := by decide
  simp only [Host.reduceAdd, Ideal.hostReduceAdd_def]
  rw [Ideal.hostReduceAdd_single reducesTo_S1000x4x1024_S1000x4_d2 h]
  show Ideal.ofBits .f32 0x00000000#32 + _ = _
  rw [Ideal.ofBits_zero_f32, zero_add]
  exact Finset.sum_congr rfl fun k _ => congrArg y (funext fun a => Fin.ext (by fin_cases a <;> rfl))

theorem v4_apply (c : Dev nD) (n : Fin 4) (q : Fin 1000) :
    (V m c main_v4 : S4x1x1000.Idx → EReal) (ix3 n (0 : Fin 1) q) = cenSq (cen m c) q n := by
  refine (congrFun (V_v4 m c) (ix3 n (0 : Fin 1) q)).trans ?_
  refine (broadcastInDim_apply ![0, 2] bcast_S4x1000_S4x1x1000_0_2 _ (ix3 n (0 : Fin 1) q) (ix2 n q) (fun a => match a with
    | ⟨0, _⟩ => by show n.val = if (4 : Nat) = 1 then 0 else n.val; rw [if_neg (by decide)]
    | ⟨1, _⟩ => by show q.val = if (1000 : Nat) = 1 then 0 else q.val; rw [if_neg (by decide)])).trans ?_
  refine (transpose_ix2_apply (a := 1000) (b := 4) _ transposes_S1000x4_S4x1000_1_0 n q).trans ?_
  exact coordSum_apply (mulf (cen m c) (cen m c)) q n

/-! ## The windows' blocks at a grid point -/

/-- The printed index maps, decided over the sixteen points: the points' window and the two outputs move with the point on
    the row axis; the centroid windows stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_sixteen (t : Fin cfg0.N) : t.val < 16 := lt_of_lt_of_eq t.isLt N_0

/-- Row p of point t's block is row 256t + p. -/
def row (t : Fin cfg0.N) (p : Fin 256) : Fin 4096 := ⟨t.val * 256 + p.val, by have := lt_sixteen t; have := p.isLt; omega⟩

theorem blk0_read (c : Dev nD) (t : Fin cfg0.N) (p : Fin 256) (k : Fin 1024) :
    iblk m c 0 t (ix2 p k) = pts m c (ix2 (row t p) k) := by
  obtain ⟨e0, e1, -⟩ := idx_facts t
  show V m c main_arg0 (((cfg0.win 0).blk t).view.emb (ix2 p k)) = _
  rw [V_main_arg0]
  refine congrArg (pts m c) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem blk1_read (c : Dev nD) (t : Fin cfg0.N) (n : Fin 4) (q : Fin 1000) (k : Fin 1024) :
    iblk m c 1 t (ix3 n q k) = cen m c (ix3 q n k) := by
  obtain ⟨-, -, e0, e1, e2, -⟩ := idx_facts t
  have he : ((cfg0.win 1).blk t).view.emb (ix3 n q k) = ix3 n q k := funext fun a => Fin.ext (by
    match a with
    | ⟨0, _⟩ => show win0_1.index t (0 : Fin 3) * 4 + 1 * n.val = n.val; rw [e0]; omega
    | ⟨1, _⟩ => show win0_1.index t (1 : Fin 3) * 1000 + 1 * q.val = q.val; rw [e1]; omega
    | ⟨2, _⟩ => show win0_1.index t (2 : Fin 3) * 1024 + 1 * k.val = k.val; rw [e2]; omega)
  show (V m c main_v0 : S4x1000x1024.Idx → EReal) (((cfg0.win 1).blk t).view.emb (ix3 n q k)) = _
  rw [he]
  exact v0_apply m c n q k

theorem blk2_read (c : Dev nD) (t : Fin cfg0.N) (n : Fin 4) (q : Fin 1000) :
    iblk m c 2 t (ix3 n (0 : Fin 1) q) = cenSq (cen m c) q n := by
  obtain ⟨-, -, -, -, -, e0, e1, e2, -⟩ := idx_facts t
  have he : ((cfg0.win 2).blk t).view.emb (ix3 n (0 : Fin 1) q) = ix3 n (0 : Fin 1) q := funext fun a => Fin.ext (by
    match a with
    | ⟨0, _⟩ => show win0_2.index t (0 : Fin 3) * 4 + 1 * n.val = n.val; rw [e0]; omega
    | ⟨1, _⟩ => show win0_2.index t (1 : Fin 3) * 1 + 1 * 0 = 0; rw [e1]
    | ⟨2, _⟩ => show win0_2.index t (2 : Fin 3) * 1000 + 1 * q.val = q.val; rw [e2]; omega)
  show (V m c main_v4 : S4x1x1000.Idx → EReal) (((cfg0.win 2).blk t).view.emb (ix3 n (0 : Fin 1) q)) = _
  rw [he]
  exact v4_apply m c n q

/-- A block's distance is the specification's, once the block's entries are the arrays'. -/
theorem bdist_eq (x0 : Vec Ideal S256x1024 .f32) (x1 : Vec Ideal S4x1000x1024 .f32) (x2 : Vec Ideal S4x1x1000 .f32)
    (x : Pts) (w : Cen) (b : Fin 4096) (p : Fin 256) (q : Fin 1000) (n : Fin 4)
    (h0 : ∀ k : Fin 1024, x0 (ix2 p k) = x (ix2 b k)) (h1 : ∀ k : Fin 1024, x1 (ix3 n q k) = w (ix3 q n k))
    (h2 : x2 (ix3 n (0 : Fin 1) q) = cenSq w q n) : bdist x0 x1 x2 p q n = dist x w b q n := by
  unfold bdist Cert.Knn.dist Cert.Knn.rowSq Cert.Knn.inner
  simp only [h0, h1, h2]

/-- The least of the four, at a point's blocks. -/
theorem block_classDist (c : Dev nD) (t : Fin cfg0.N) (p : Fin 256) (q : Fin 1000) :
    min4 (bdist (iblk m c 0 t) (iblk m c 1 t) (iblk m c 2 t) p q) = classDist (pts m c) (cen m c) (row t p) q :=
  congrArg min4 (funext fun n => bdist_eq (iblk m c 0 t) (iblk m c 1 t) (iblk m c 2 t) (pts m c) (cen m c) (row t p) p q n
    (fun k => blk0_read m c t p k) (fun k => blk1_read m c t n q k) (blk2_read m c t n q))

/-! ## The first output: the negated class distances -/

theorem flushed3_eq (c : Dev nD) (t : Fin cfg0.N) :
    (dats m 0 c).flushed 3 t = ((cfg0.win 3).blk t).view.read (Elt Ideal) (negDist (pts m c) (cen m c)) := by
  obtain ⟨-, -, -, -, -, -, -, -, e0, e1, -⟩ := idx_facts t
  show (cfg0.win 3).cut (grid0.coords t) ((dats m 0 c).after 3 t) = _
  rw [after0_3]
  funext j
  obtain ⟨p, q, rfl⟩ : ∃ (p : Fin 256) (q : Fin 1000), j = ix2 p q := ⟨j 0, j 1, eq_ix2 j⟩
  have he : ((cfg0.win 3).blk t).view.emb (ix2 p q) = ix2 (row t p) q := funext fun a => Fin.ext (by
    match a with
    | ⟨0, _⟩ => show win0_3.index t (0 : Fin 2) * 256 + 1 * p.val = t.val * 256 + p.val; rw [e0]; omega
    | ⟨1, _⟩ => show win0_3.index t (1 : Fin 2) * 1000 + 1 * q.val = q.val; rw [e1]; omega)
  show out0_3 (iblk m c 0 t) (iblk m c 1 t) (iblk m c 2 t) (ix2 p q)
    = negDist (pts m c) (cen m c) (((cfg0.win 3).blk t).view.emb (ix2 p q))
  rw [he, negDist_apply]
  refine (out3_apply (iblk m c 0 t) (iblk m c 1 t) (iblk m c 2 t) p q).trans ?_
  exact congrArg (fun z => -z) (block_classDist m c t p q)

theorem mem_blk3 (t : Fin cfg0.N) (i : S4096x1000.Idx) :
    i ∈ ((cfg0.win 3).blk t).view.set ↔ ∀ a : Fin 2, win0_3.index t a * S256x1000.size a ≤ (i a).val
      ∧ (i a).val < win0_3.index t a * S256x1000.size a + S256x1000.size a := by
  show i ∈ ((View.whole main_v5_0).slice (win0_3.rect t)).set ↔ _
  rw [View.set_slice_whole, Rect.mem_set_unit]
  exact Iff.rfl

/-- Row r is in the block of point r / 256. -/
theorem cover3 (i : S4096x1000.Idx) : ∃ t : Fin cfg0.N, (cfg0.win 3).flush t = true ∧ i ∈ ((cfg0.win 3).blk t).view.set := by
  have hi0 : (i 0).val < 4096 := (i 0).isLt
  have hi1 : (i 1).val < 1000 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e0, e1, -⟩ := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 1000 ≤ (i 1).val ∧ (i 1).val < win0_3.index t (1 : Fin 2) * 1000 + 1000
    rw [e1]; omega

/-- The first output array after the run. -/
theorem final3 (c : Dev nD) : (dats m 0 c).arrAt 3 cfg0.N = negDist (pts m c) (cen m c) :=
  (dats m 0 c).arrAt_eq_of_cover 3 (negDist (pts m c) (cen m c)) (fun t _ => flushed3_eq m c t) cover3

/-! ## The second output: each point's least class distance -/

theorem flushed4_eq (c : Dev nD) (t : Fin cfg0.N) :
    (dats m 0 c).flushed 4 t = ((cfg0.win 4).blk t).view.read (Elt Ideal) (minDist (pts m c) (cen m c)) := by
  obtain ⟨-, -, -, -, -, -, -, -, -, -, e0, e1⟩ := idx_facts t
  show (cfg0.win 4).cut (grid0.coords t) ((dats m 0 c).after 4 t) = _
  rw [after0_4]
  funext j
  obtain ⟨p, u, rfl⟩ : ∃ (p : Fin 256) (u : Fin 1), j = ix2 p u := ⟨j 0, j 1, eq_ix2 j⟩
  have he : ((cfg0.win 4).blk t).view.emb (ix2 p u) = ix2 (row t p) u := funext fun a => Fin.ext (by
    match a with
    | ⟨0, _⟩ => show win0_4.index t (0 : Fin 2) * 256 + 1 * p.val = t.val * 256 + p.val; rw [e0]; omega
    | ⟨1, _⟩ => show win0_4.index t (1 : Fin 2) * 1 + 1 * u.val = u.val; rw [e1]; omega)
  show out0_4 (iblk m c 0 t) (iblk m c 1 t) (iblk m c 2 t) (ix2 p u)
    = minDist (pts m c) (cen m c) (((cfg0.win 4).blk t).view.emb (ix2 p u))
  rw [he, minDist_apply]
  refine (out4_apply (iblk m c 0 t) (iblk m c 1 t) (iblk m c 2 t) p u).trans ?_
  exact congrArg (fun f => Finset.fold min pinf f (Finset.univ : Finset (Fin 1000))) (funext fun q => block_classDist m c t p q)

theorem mem_blk4 (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v5_1).slice (win0_4.rect t)).set ↔ _
  rw [View.set_slice_whole, Rect.mem_set_unit]
  exact Iff.rfl

theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 1 ≤ (i 1).val ∧ (i 1).val < win0_4.index t (1 : Fin 2) * 1 + 1
    rw [e1]; omega

/-- The second output array after the run. -/
theorem final4 (c : Dev nD) : (dats m 0 c).arrAt 4 cfg0.N = minDist (pts m c) (cen m c) :=
  (dats m 0 c).arrAt_eq_of_cover 4 (minDist (pts m c) (cen m c)) (fun t _ => flushed4_eq m c t) cover4

end Cert.KernelIdeal.Arrays

end
-- ==== Proof.LibAfterAppend.lean ====
/-
  The host's buffer contents after several stretches of operations.

  `StableHlo.after ops V` folds a list of host operations over the buffer contents `V`. A program whose operations after
  a region come in several stretches (a called function is a stretch of its own) states its tail over the flattened list of
  the stretches; the fold over an append is the fold over the second list from the fold over the first, so the stretches can
  be peeled one at a time and each kept as the literal list it is. General in the topology, the signature and the values.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two stretches of operations are those after the second, from those after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Two stretches, flattened. -/
theorem after_flatten2 (a b : List (HloOp τ sig Val)) (V : Valuation τ sig Val) :
    after (List.flatten [a, b]) V = after b (after a V) := by
  show after (a ++ (b ++ [])) V = _
  rw [after_append, List.append_nil]

/-- Three stretches, flattened. -/
theorem after_flatten3 (a b c : List (HloOp τ sig Val)) (V : Valuation τ sig Val) :
    after (List.flatten [a, b, c]) V = after c (after b (after a V)) := by
  show after (a ++ (b ++ (c ++ []))) V = _
  rw [after_append, after_append, List.append_nil]

/-- Four stretches, flattened. -/
theorem after_flatten4 (a b c d : List (HloOp τ sig Val)) (V : Valuation τ sig Val) :
    after (List.flatten [a, b, c, d]) V = after d (after c (after b (after a V))) := by
  show after (a ++ (b ++ (c ++ (d ++ [])))) V = _
  rw [after_append, after_append, after_append, List.append_nil]

end Cert.LibAfterAppend

end
-- ==== Proof.KernelRun.lean ====
/-
  The kernel's program, run: its result as the common tail of the specification's two arrays.

  After the region the host computes, from the four scalars, the acceptance threshold; from it and each point's least
  distance the logistic of (threshold − least distance) / temperature; and joins that column to the negated class
  distances. These are the reference's own last operations, so they are carried as one function (the reference's `tail`) of
  the two arrays the region leaves and of the scalars, and never opened.
-/
import proofs.«169492_j26603027431729_1_alg».proof.Proof.Gen.KernelIdeal.Frame
import proofs.«169492_j26603027431729_1_alg».proof.Proof.KernelArrays
import proofs.«169492_j26603027431729_1_alg».proof.Proof.RefTail
import proofs.«169492_j26603027431729_1_alg».proof.Proof.LibAfterAppend
import Idealize.ShloMosaic.Lib.StableHlo.Run

set_option maxRecDepth 16384

noncomputable section

namespace Cert.KernelIdeal.Run

open Cert.KernelIdeal Cert.KernelIdeal.Gen Cert.KernelIdeal.Arrays Cert.Knn
open Idealize.ShloMosaic Idealize.ShloMosaic.TcCoe Idealize.SL.Sem Idealize.ShloMosaic.StableHlo
open Cert.ReferenceIdeal.RefValue (tail)

set_option maxHeartbeats 2000000 in
/-- The operations after the region, over any contents `W` of the buffers at the region's exit: the result buffer ends at
    the tail of what `W` holds at the region's two outputs and at the four scalar arguments. -/
theorem tail_after (W : Valuation τ sig (Elt Ideal)) :
    StableHlo.after (List.flatten [hostOps1, hostOps1_1, hostOps1_2, hostOps1_3]) W (Proc.devRef .tc main_v21)
      = tail (W (Proc.devRef .tc main_v5_0)) (W (Proc.devRef .tc main_v5_1)) (W (Proc.devRef .tc main_arg2))
          (W (Proc.devRef .tc main_arg3)) (W (Proc.devRef .tc main_arg4)) (W (Proc.devRef .tc main_arg5)) := by
  rw [Cert.LibAfterAppend.after_flatten4]
  after_results_simp
  unfold Cert.ReferenceIdeal.RefValue.tail
  refine congrArg₂ ((fun a b => concatenate S4096x1001 1 [⟨S4096x1000, a⟩, ⟨S4096x1, b⟩] concatenates_S4096x1000_S4096x1_S4096x1001_d1) :
    FVec Ideal S4096x1000 .f32 → FVec Ideal S4096x1 .f32 → FVec Ideal S4096x1001 .f32) ?_ ?_
  · after_results_simp
  · after_results_simp <;> rfl

variable (m : (ℓ : Loc nD τ sig) → Buf (Elt Ideal) ℓ) (ρ : Dev nD → PrngReg)

/-- The result buffer after the whole program. -/
theorem result_eq (c : Dev nD) :
    Pipeline.afterTail₀ cfgs (dats m) 0 (V0 m) [hostOps1, hostOps1_1, hostOps1_2, hostOps1_3] c main_v21
      = tail (negDist (pts m c) (cen m c)) (minDist (pts m c) (cen m c)) (m ((c.tc : Thread nD τ).loc main_arg2))
          (m ((c.tc : Thread nD τ).loc main_arg3)) (m ((c.tc : Thread nD τ).loc main_arg4)) (m ((c.tc : Thread nD τ).loc main_arg5)) := by
  unfold Pipeline.afterTail₀
  refine (tail_after _).trans ?_
  rw [(Pipeline.withArrays_arr spec0 launch0.win.arr_inj c _ _ 3).trans (final3 m c),
    (Pipeline.withArrays_arr spec0 launch0.win.arr_inj c _ _ 4).trans (final4 m c),
    (Pipeline.withArrays_of_ne spec0 c (V0 m c) _ main_arg2 (by decide)).trans (V_main_arg2 m c),
    (Pipeline.withArrays_of_ne spec0 c (V0 m c) _ main_arg3 (by decide)).trans (V_main_arg3 m c),
    (Pipeline.withArrays_of_ne spec0 c (V0 m c) _ main_arg4 (by decide)).trans (V_main_arg4 m c),
    (Pipeline.withArrays_of_ne spec0 c (V0 m c) _ main_arg5 (by decide)).trans (V_main_arg5 m c)]

/-- Every weakly fair execution of the kernel's program terminates, nothing faulting, with the result at the tail of the
    specification's arrays of the launched points and centroids, and the arguments unchanged. -/
theorem run : θ_run defs (onTc (τ := τ) (main (F := Ideal))) ⟨m, fun _ => 0, ρ⟩ fun r => ∀ c : Dev nD,
      r.2.mem ((c.tc : Thread nD τ).loc main_v21)
        = tail (negDist (pts m c) (cen m c)) (minDist (pts m c) (cen m c)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/- Nearest-centroid distances on a grid of sixteen row blocks against the same distances computed at once.

   Both programs return, for 4096 points and 1000 classes of four centroids, minus each point's distance to its nearest
   centroid of every class, and in a last column the logistic of (threshold − the point's least distance) / temperature.
   The kernel forms ‖x‖² − 2⟨x, w⟩ + ‖w‖² slot by slot on blocks of 256 points and keeps running minima; the reference forms
   all 4096 × 4000 values, folds them to 4096 × 1000 × 4 and reduces. On the extended reals the two are one function: the
   sums are re-indexed (row 4c + n of the flattened centroids is centroid (c, n)), never regrouped, a chain of pairwise
   minima and a fold of `min` from +∞ are both the greatest lower bound, 0 − d is −d, and the scalar tail is the same
   operations applied to equal arrays. No step needs an entry to be finite, so the precondition is not opened.
   The three frames are the generated ones (the reference's is its run with the result dropped); the kernel was printed
   without any idealizing rewrite, so `preserves` is trivial. -/
import proofs.«169492_j26603027431729_1_alg».proof.Defs
import proofs.«169492_j26603027431729_1_alg».proof.Proof.Gen.Kernel
import proofs.«169492_j26603027431729_1_alg».proof.Proof.Gen.Kernel.Skeleton
import proofs.«169492_j26603027431729_1_alg».proof.Proof.Gen.Kernel.Launch
import proofs.«169492_j26603027431729_1_alg».proof.Proof.Gen.Kernel.Points
import proofs.«169492_j26603027431729_1_alg».proof.Proof.Gen.Kernel.Frame
import proofs.«169492_j26603027431729_1_alg».proof.Proof.Gen.KernelIdeal
import proofs.«169492_j26603027431729_1_alg».proof.Proof.Gen.KernelIdeal.Skeleton
import proofs.«169492_j26603027431729_1_alg».proof.Proof.Gen.KernelIdeal.Launch
import proofs.«169492_j26603027431729_1_alg».proof.Proof.Gen.KernelIdeal.Points
import proofs.«169492_j26603027431729_1_alg».proof.Proof.Gen.KernelIdeal.Frame
import proofs.«169492_j26603027431729_1_alg».proof.Proof.Gen.ReferenceIdeal
import proofs.«169492_j26603027431729_1_alg».proof.Proof.Gen.Pre_finite_inputs
import proofs.«169492_j26603027431729_1_alg».proof.Proof.RefRunPatched
import proofs.«169492_j26603027431729_1_alg».proof.Proof.RefValue
import proofs.«169492_j26603027431729_1_alg».proof.Proof.KernelRun
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at the tail of the specification's two arrays. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v38_eq (F := Ideal) _ _ _ _ _ _).trans ?_
  rw [Cert.ReferenceIdeal.RefValue.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
